-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S1024x12 : Shape := ⟨2, ![1024, 12]⟩
abbrev S1024 : Shape := ⟨1, ![1024]⟩
abbrev S_ : Shape := ⟨0, ![]⟩

class Facts : Prop where
  bcast_S_S1024x12 : S_.BroadcastsInDim S1024x12 (![] : Fin 0 → Fin S1024x12.rank)
  reducesTo_S1024x12_S_d0_1 : S1024x12.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : IVec S4x8192 32) (main_arg1 : FVec F S1024x12 .f32) (main_arg2 : FVec F S1024 .f32) : IVec S_ 1 :=
  let main_v0 : FVec F S1024x12 .f32 := Host.absf main_arg1
  let main_cst : FVec F S_ .f32 := constant S_ .f32 0x7F800000#32
  let main_v1 : FVec F S1024x12 .f32 := broadcastInDim S1024x12 ![] bcast_S_S1024x12 main_cst
  let main_v2 : IVec S1024x12 1 := cmpf .olt main_v0 main_v1
  let main_c : IVec S_ 1 := constantI S_ 1 1#1
  let main_v3 : IVec S_ 1 := (fun x v => Host.reduce IntOp.andi x v reducesTo_S1024x12_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S4x8192 : Shape := ⟨2, ![4, 8192]⟩
abbrev S1024x12 : Shape := ⟨2, ![1024, 12]⟩
abbrev S1024 : Shape := ⟨1, ![1024]⟩
abbrev S4x8192x1 : Shape := ⟨3, ![4, 8192, 1]⟩
abbrev S1024x1 : Shape := ⟨2, ![1024, 1]⟩
abbrev S_ : Shape := ⟨0, ![]⟩
abbrev S1x1x1024 : Shape := ⟨3, ![1, 1, 1024]⟩
abbrev S4x8192x1024 : Shape := ⟨3, ![4, 8192, 1024]⟩
abbrev S4x512x1 : Shape := ⟨3, ![4, 512, 1]⟩
abbrev S4x512x1024 : Shape := ⟨3, ![4, 512, 1024]⟩

abbrev nBuf : Space → Nat
  | .hbm => 61
  | .vmem => 7
  | .smem => 0
  | _ => 0

abbrev bufTy : (tb : Table) → Fin (tcTables nBuf tb) → BufTy
  | .hbm, ⟨0, _⟩ => ⟨S4x8192, .i32⟩
  | .hbm, ⟨1, _⟩ => ⟨S1024x12, .f32⟩
  | .hbm, ⟨2, _⟩ => ⟨S1024, .f32⟩
  | .hbm, ⟨3, _⟩ => ⟨S4x8192, .f32⟩
  | .hbm, ⟨4, _⟩ => ⟨S4x8192x1, .f32⟩
  | .hbm, ⟨5, _⟩ => ⟨S1024x1, .f32⟩
  | .hbm, ⟨6, _⟩ => ⟨S1024, .f32⟩
  | .hbm, ⟨7, _⟩ => ⟨S1024x1, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024, .f32⟩
  | .hbm, ⟨12, _⟩ => ⟨S1024, .f32⟩
  | .hbm, ⟨13, _⟩ => ⟨S1024x1, .f32⟩
  | .hbm, ⟨14, _⟩ => ⟨S1024, .f32⟩
  | .hbm, ⟨15, _⟩ => ⟨S1024, .f32⟩
  | .hbm, ⟨16, _⟩ => ⟨S1024x1, .f32⟩
  | .hbm, ⟨17, _⟩ => ⟨S1024, .f32⟩
  | .hbm, ⟨18, _⟩ => ⟨S1024x1, .f32⟩
  | .hbm, ⟨19, _⟩ => ⟨S1024, .f32⟩
  | .hbm, ⟨20, _⟩ => ⟨S1024, .f32⟩
  | .hbm, ⟨21, _⟩ => ⟨S1024x1, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024x1, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024, .f32⟩
  | .hbm, ⟨41, _⟩ => ⟨S1024, .f32⟩
  | .hbm, ⟨42, _⟩ => ⟨S1024x1, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1024x1, .f32⟩
  | .hbm, ⟨49, _⟩ => ⟨S1024, .f32⟩
  | .hbm, ⟨50, _⟩ => ⟨S1024, .f32⟩
  | .hbm, ⟨51, _⟩ => ⟨S1024x1, .f32⟩
  | .hbm, ⟨52, _⟩ => ⟨S1024, .f32⟩
  | .hbm, ⟨53, _⟩ => ⟨S1024, .f32⟩
  | .hbm, ⟨54, _⟩ => ⟨S1024x1, .f32⟩
  | .hbm, ⟨55, _⟩ => ⟨S1024, .f32⟩
  | .hbm, ⟨56, _⟩ => ⟨S1024, .f32⟩
  | .hbm, ⟨57, _⟩ => ⟨S1x1x1024, .f32⟩
  | .hbm, ⟨58, _⟩ => ⟨S1x1x1024, .f32⟩
  | .hbm, ⟨59, _⟩ => ⟨S1x1x1024, .f32⟩
  | .hbm, ⟨60, _⟩ => ⟨S4x8192x1024, .f32⟩
  | .local _ .vmem, ⟨0, _⟩ => ⟨S4x512x1, .f32⟩
  | .local _ .vmem, ⟨1, _⟩ => ⟨S4x512x1, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S4x512x1024, .f32⟩
  | .local _ .vmem, ⟨6, _⟩ => ⟨S4x512x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S4x8192_S4x8192x1_0_1 : S4x8192.BroadcastsInDim S4x8192x1 (![0, 1] : Fin 2 → Fin S4x8192x1.rank)
  slices_S1024x12_S1024x1_0_0 : S1024x12.Slices ![0, 0] S1024x1
  shapeCasts_S1024x1_S1024 : S1024x1.ShapeCasts S1024
  slices_S1024x12_S1024x1_0_3 : S1024x12.Slices ![0, 3] S1024x1
  slices_S1024x12_S1024x1_0_6 : S1024x12.Slices ![0, 6] S1024x1
  slices_S1024x12_S1024x1_0_9 : S1024x12.Slices ![0, 9] S1024x1
  slices_S1024x12_S1024x1_0_1 : S1024x12.Slices ![0, 1] S1024x1
  slices_S1024x12_S1024x1_0_2 : S1024x12.Slices ![0, 2] S1024x1
  slices_S1024x12_S1024x1_0_4 : S1024x12.Slices ![0, 4] S1024x1
  bcast_S_S1024 : S_.BroadcastsInDim S1024 (![] : Fin 0 → Fin S1024.rank)
  slices_S1024x12_S1024x1_0_8 : S1024x12.Slices ![0, 8] S1024x1
  slices_S1024x12_S1024x1_0_10 : S1024x12.Slices ![0, 10] S1024x1
  slices_S1024x12_S1024x1_0_5 : S1024x12.Slices ![0, 5] S1024x1
  shapeCasts_S1024_S1x1x1024 : S1024.ShapeCasts S1x1x1024
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S4x512x1_S4x512x1024 : S4x512x1.Broadcasts S4x512x1024
  broadcasts_S1x1x1024_S4x512x1024 : S1x1x1024.Broadcasts S4x512x1024
  inb_S4x512x1024_S4x512x1024_0_0_0 : ∀ a, (![0, 0, 0] : Fin 3 → Nat) a + S4x512x1024.size a ≤ S4x512x1024.size a
  h_S4x512x1024 : 0 < S4x512x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1.size a ≤ S4x8192x1.size a
  hwx0_0 : ∀ i : grid0.Coords, EltTy.bits .f32 = 32 ∨ (Rect.block (s := S4x8192x1) S4x512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S1x1x1024.size a
  hwx0_1 : ∀ i : grid0.Coords, EltTy.bits .f32 = 32 ∨ (Rect.block (s := S1x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S1x1x1024.size a
  hwx0_2 : ∀ i : grid0.Coords, EltTy.bits .f32 = 32 ∨ (Rect.block (s := S1x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S1x1x1024.size a
  hwx0_3 : ∀ i : grid0.Coords, EltTy.bits .f32 = 32 ∨ (Rect.block (s := S1x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x8192x1024.size a
  hwx0_4 : ∀ i : grid0.Coords, EltTy.bits .f32 = 32 ∨ (Rect.block (s := S4x8192x1024) S4x512x1024.size (cc0_transform_4 i) (hinb0_4 i)).WholeWords (EltTy.packing .f32)

variable [Facts₀]

abbrev win0_0 : Pipeline.Window sig grid0 :=
  Pipeline.Window.ofSpec (Memref.whole main_v1) S4x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1x1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192 : Shape := ⟨2, ![4, 8192]⟩
abbrev S1024x12 : Shape := ⟨2, ![1024, 12]⟩
abbrev S1024 : Shape := ⟨1, ![1024]⟩
abbrev S_ : Shape := ⟨0, ![]⟩
abbrev S4x8192x1 : Shape := ⟨3, ![4, 8192, 1]⟩
abbrev S4x8192x12 : Shape := ⟨3, ![4, 8192, 12]⟩
abbrev S4x8192x1024 : Shape := ⟨3, ![4, 8192, 1024]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S1024x12, .f32⟩
  | .hbm, ⟨2, _⟩ => ⟨S1024, .f32⟩
  | .hbm, ⟨3, _⟩ => ⟨S4x8192, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S_, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S4x8192, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S_, .f32⟩
  | .hbm, ⟨20, _⟩ => ⟨S4x8192, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192x1, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x12, .f32⟩
  | .hbm, ⟨38, _⟩ => ⟨S4x8192x1024, .f32⟩
  | .hbm, ⟨39, _⟩ => ⟨S1x1x1024, .f32⟩
  | .hbm, ⟨40, _⟩ => ⟨S4x8192x1024, .f32⟩
  | .hbm, ⟨41, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  concatenates_S4x8192x1_S4x8192x1_S4x8192x1_S4x8192x1_S4x8192x1_S4x8192x1_S4x8192x1_S4x8192x1_S4x8192x1_S4x8192x1_S4x8192x1_S4x8192x1_S4x8192x12_d2 : Shape.Concatenates [S4x8192x1, S4x8192x1, S4x8192x1, S4x8192x1, S4x8192x1, S4x8192x1, S4x8192x1, S4x8192x1, S4x8192x1, S4x8192x1, S4x8192x1, S4x8192x1] S4x8192x12 2
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  dot_S4x8192x12_S1024x12_S4x8192x1024_2_1_01_0_n_n_wf : DotDims.WF S4x8192x12 S1024x12 S4x8192x1024 [2] [1] [0, 1] [0] [] []

variable [Facts₀]

def dot_S4x8192x12_S1024x12_S4x8192x1024_2_1_01_0_n_n : DotDims S4x8192x12 S1024x12 S4x8192x1024 where
  lhsContracting := [2]
  rhsContracting := [1]
  lhsNonContracting := [0, 1]
  rhsNonContracting := [0]
  lhsBatch := []
  rhsBatch := []
  wf := dot_S4x8192x12_S1024x12_S4x8192x1024_2_1_01_0_n_n_wf

class Facts : Prop extends Facts₀ where

variable [Facts]
-- ==== Proof.Quadratic.lean ====
/-
  The embedding this kernel computes, as mathematics. A token id `n` is read as the real number `t = n`. The reference
  forms twelve features of `t`,
      [t², t, t+1, t², 2t+2, −1, t², 0, 2t+1, t², 2t+1, 0],
  contracts them against row `d` of the weight matrix `W` (1024 × 12) and adds the bias `b d`:
      out(p, q, d) = Σ_{f<12} feat_f(t) · W(d, f) + b(d),      t = N(p, q).
  The kernel gathers the coefficients of t², t and 1 beforehand,
      A(d)  = W(d,0) + W(d,3) + W(d,6) + W(d,9)
      B(d)  = W(d,1) + W(d,2) + 2 W(d,4) + 2 W(d,8) + 2 W(d,10)
      C(d)  = b(d) + W(d,2) + 2 W(d,4) − W(d,5) + W(d,8) + W(d,10)
  and evaluates out(p, q, d) = t² A(d) + t B(d) + C(d).
  The two agree by distributivity, which on the extended reals holds only among finite numbers: so the identity is
  proved in ℝ, for weights and bias that are real (the precondition) — `t` is an integer, hence real.
  This module imports no program: it states the function `embed`, the features, and the identity.
-/
import Idealize.ShloMosaic.PureOps.Ideal
import Idealize.ShloMosaic.PureOps.Ideal.Laws
import Idealize.ShloMosaic.Lib.ValueIdx

noncomputable section

namespace Cert.TokenQuadratic

open Idealize.ShloMosaic Idealize.ShloMosaic.ValueIdx

/-! ## The three float words the two programs spell -/

/-- The word of `2.0` denotes the real 2. -/
theorem ofBits_two : Ideal.ofBits .f32 0x40000000#32 = ((2 : ℝ) : EReal) := by
  simp [Ideal.ofBits, Ideal.ieee, -EReal.coe_mul]; norm_num

/-- The word of `1.0` denotes the real 1. -/
theorem ofBits_one : Ideal.ofBits .f32 0x3F800000#32 = ((1 : ℝ) : EReal) := by
  simp [Ideal.ofBits, Ideal.ieee, -EReal.coe_mul]; norm_num

/-- The word of `0.0` denotes the real 0. -/
theorem ofBits_zero : Ideal.ofBits .f32 0x00000000#32 = ((0 : ℝ) : EReal) := by
  rw [Ideal.ofBits_zero_f32]; rfl

/-! ## The shapes, and the function -/

abbrev STok : Shape := ⟨2, ![4, 8192]⟩
abbrev SW : Shape := ⟨2, ![1024, 12]⟩
abbrev SBias : Shape := ⟨1, ![1024]⟩
abbrev SOut : Shape := ⟨3, ![4, 8192, 1024]⟩

/-- The token at `(p, q)`, read as a real number. -/
def tok (N : STok.Idx → BitVec 32) (p : Fin 4) (q : Fin 8192) : EReal := (((N (ix2 p q)).toInt : ℝ) : EReal)

/-- The float `2.0`, as both programs spell it. -/
def two : EReal := Ideal.ofBits .f32 0x40000000#32

/-- The coefficient of t² in row `d`: the four weights that meet a t² feature. -/
def quadCoef (W : SW.Idx → EReal) (d : Fin 1024) : EReal :=
  W (ix2 d (0 : Fin 12)) + W (ix2 d (3 : Fin 12)) + W (ix2 d (6 : Fin 12)) + W (ix2 d (9 : Fin 12))

/-- The coefficient of t in row `d`. -/
def linCoef (W : SW.Idx → EReal) (d : Fin 1024) : EReal :=
  W (ix2 d (1 : Fin 12)) + W (ix2 d (2 : Fin 12)) + two * W (ix2 d (4 : Fin 12)) + two * W (ix2 d (8 : Fin 12))
    + two * W (ix2 d (10 : Fin 12))

/-- The constant term in row `d`, the bias included. -/
def constCoef (W : SW.Idx → EReal) (b : SBias.Idx → EReal) (d : Fin 1024) : EReal :=
  b (ix1 d) + W (ix2 d (2 : Fin 12)) + two * W (ix2 d (4 : Fin 12)) - W (ix2 d (5 : Fin 12)) + W (ix2 d (8 : Fin 12))
    + W (ix2 d (10 : Fin 12))

/-- The embedding at coordinates: t² A(d) + t B(d) + C(d). -/
def embedAt (N : STok.Idx → BitVec 32) (W : SW.Idx → EReal) (b : SBias.Idx → EReal) (p : Fin 4) (q : Fin 8192)
    (d : Fin 1024) : EReal :=
  tok N p q * tok N p q * quadCoef W d + tok N p q * linCoef W d + constCoef W b d

/-- The embedding as one array over [4, 8192, 1024]. -/
def embed (N : STok.Idx → BitVec 32) (W : SW.Idx → EReal) (b : SBias.Idx → EReal) : SOut.Idx → EReal :=
  fun i => embedAt N W b (i 0) (i 1) (i 2)

/-! ## The reference's twelve features -/

/-- The float `1.0` and `0.0`, as the reference spells them. -/
def one : EReal := Ideal.ofBits .f32 0x3F800000#32
def zero : EReal := Ideal.ofBits .f32 0x00000000#32

/-- The features of `t`, in the reference's order. -/
def feat (t : EReal) : Fin 12 → EReal :=
  ![t * t, t, t + one, t * t, two * t + two, -one, t * t, zero, two * t + one, t * t, two * t + one, zero]

/-- A sum over twelve terms, written out. -/
theorem sum_twelve {M : Type*} [AddCommMonoid M] (g : Fin 12 → M) :
    ∑ k, g k = g 0 + g 1 + g 2 + g 3 + g 4 + g 5 + g 6 + g 7 + g 8 + g 9 + g 10 + g 11 := by
  rw [Fin.sum_univ_castSucc, Fin.sum_univ_castSucc, Fin.sum_univ_castSucc, Fin.sum_univ_castSucc, Fin.sum_univ_eight]
  rfl

/-- The identity in ℝ: the twelve-term contraction plus the bias is the quadratic in `t` with the gathered
    coefficients. -/
theorem contraction_eq_quadratic (t w0 w1 w2 w3 w4 w5 w6 w7 w8 w9 w10 w11 b : ℝ) :
    t * t * w0 + t * w1 + (t + 1) * w2 + t * t * w3 + (2 * t + 2) * w4 + -1 * w5 + t * t * w6 + 0 * w7
        + (2 * t + 1) * w8 + t * t * w9 + (2 * t + 1) * w10 + 0 * w11 + b
      = t * t * (w0 + w3 + w6 + w9) + t * (w1 + w2 + 2 * w4 + 2 * w8 + 2 * w10)
        + (b + w2 + 2 * w4 - w5 + w8 + w10) := by
  ring

/-- The same on the extended reals, for a real `t`, real weights in row `d` and a real bias: the reference's sum over
    the features plus the bias is the kernel's quadratic. -/
theorem features_dot_eq_embedAt (N : STok.Idx → BitVec 32) (W : SW.Idx → EReal) (b : SBias.Idx → EReal)
    (hW : ∀ j, ∃ r : ℝ, W j = (r : EReal)) (hb : ∀ j, ∃ r : ℝ, b j = (r : EReal)) (p : Fin 4) (q : Fin 8192)
    (d : Fin 1024) :
    (∑ k : Fin 12, feat (tok N p q) k * W (ix2 d k)) + b (ix1 d) = embedAt N W b p q d := by
  obtain ⟨w0, h0⟩ := hW (ix2 d (0 : Fin 12))
  obtain ⟨w1, h1⟩ := hW (ix2 d (1 : Fin 12))
  obtain ⟨w2, h2⟩ := hW (ix2 d (2 : Fin 12))
  obtain ⟨w3, h3⟩ := hW (ix2 d (3 : Fin 12))
  obtain ⟨w4, h4⟩ := hW (ix2 d (4 : Fin 12))
  obtain ⟨w5, h5⟩ := hW (ix2 d (5 : Fin 12))
  obtain ⟨w6, h6⟩ := hW (ix2 d (6 : Fin 12))
  obtain ⟨w7, h7⟩ := hW (ix2 d (7 : Fin 12))
  obtain ⟨w8, h8⟩ := hW (ix2 d (8 : Fin 12))
  obtain ⟨w9, h9⟩ := hW (ix2 d (9 : Fin 12))
  obtain ⟨w10, h10⟩ := hW (ix2 d (10 : Fin 12))
  obtain ⟨w11, h11⟩ := hW (ix2 d (11 : Fin 12))
  obtain ⟨β, hβ⟩ := hb (ix1 d)
  rw [sum_twelve]
  show (tok N p q * tok N p q) * W (ix2 d (0 : Fin 12)) + tok N p q * W (ix2 d (1 : Fin 12))
      + (tok N p q + one) * W (ix2 d (2 : Fin 12)) + (tok N p q * tok N p q) * W (ix2 d (3 : Fin 12))
      + (two * tok N p q + two) * W (ix2 d (4 : Fin 12)) + -one * W (ix2 d (5 : Fin 12))
      + (tok N p q * tok N p q) * W (ix2 d (6 : Fin 12)) + zero * W (ix2 d (7 : Fin 12))
      + (two * tok N p q + one) * W (ix2 d (8 : Fin 12)) + (tok N p q * tok N p q) * W (ix2 d (9 : Fin 12))
      + (two * tok N p q + one) * W (ix2 d (10 : Fin 12)) + zero * W (ix2 d (11 : Fin 12)) + b (ix1 d) = _
  unfold embedAt quadCoef linCoef constCoef
  rw [h0, h1, h2, h3, h4, h5, h6, h7, h8, h9, h10, h11, hβ]
  unfold tok two one zero
  rw [ofBits_two, ofBits_one, ofBits_zero]
  generalize (((N (ix2 p q)).toInt : ℝ)) = t
  exact_mod_cast congrArg (fun x : ℝ => (x : EReal)) (contraction_eq_quadratic t w0 w1 w2 w3 w4 w5 w6 w7 w8 w9 w10 w11 β)

end Cert.TokenQuadratic

end
-- ==== Proof.HostPrefix.lean ====
/-
  What the kernel's region finds in its four input arrays. Before the launch the program converts the tokens to floats
  (array [4, 8192, 1]: the token at (p, q)), and gathers from the weights the three coefficient rows, each laid out
  [1, 1, 1024]: at `d` the coefficient of t² (columns 0, 3, 6, 9 of row `d` added), of t (columns 1, 2 and twice columns
  4, 8, 10) and the constant (bias, columns 2, twice 4, minus 5, plus 8 and 10). A column of the weights is a slice
  [1024, 1] reshaped to [1024]: entry `d` of column `K` is W(d, K).
-/
import proofs.«154314_j15530601742779_2_alg».proof.Proof.Gen.KernelIdeal.Frame
import proofs.«154314_j15530601742779_2_alg».proof.Proof.Quadratic
import Idealize.ShloMosaic.Lib.StableHlo.Run
import Idealize.ShloMosaic.Lib.Pipeline.Value

noncomputable section

namespace Cert.TokenQuadratic.Kernel

open Cert.KernelIdeal Cert.KernelIdeal.Gen Idealize.ShloMosaic Idealize.ShloMosaic.TcCoe Idealize.SL.Sem
open Idealize.ShloMosaic.StableHlo Idealize.ShloMosaic.ValueIdx Cert.TokenQuadratic

/-! ## A column of the weights, and the splat of 2.0 -/

/-- Column `K` of the weights as a [1024] array: the slice [1024, 1] at column offset `K`, reshaped. -/
def column (W : S1024x12.Idx → EReal) (K : Nat) (hs : S1024x12.Slices ![0, K] S1024x1) : FVec Ideal S1024 .f32 :=
  shapeCast S1024 (extractStridedSlice S1024x1 ![0, K] W hs) Facts₀.shapeCasts_S1024x1_S1024

/-- Its entry `d` is W(d, K). -/
theorem column_apply (W : S1024x12.Idx → EReal) (K : Nat) (hK : K < 12) (hs : S1024x12.Slices ![0, K] S1024x1)
    (d : Fin 1024) : column W K hs (ix1 d) = W (ix2 d ⟨K, hK⟩) := by
  unfold column
  refine (shapeCast_apply _ Facts₀.shapeCasts_S1024x1_S1024 (ix1 d) (ix2 d (0 : Fin 1)) ?_).trans ?_
  · rw [Shape.rowMajor_val_two, Shape.rowMajor_val_one]
    show d.val * 1 + 0 = d.val
    omega
  · exact extractStridedSlice_apply _ W hs _ (ix2 d ⟨K, hK⟩) (fun a => match a with
      | ⟨0, _⟩ => by show d.val = 0 + d.val; omega
      | ⟨1, _⟩ => by show K = K + 0; omega)

/-- The [1024] array every entry of which is the float 2.0. -/
def twos : FVec Ideal S1024 .f32 :=
  broadcastInDim S1024 ![] Facts₀.bcast_S_S1024 (constant (F := Ideal) S_ .f32 0x40000000#32)

theorem twos_apply (i : S1024.Idx) : twos i = two := by
  unfold twos
  exact broadcastInDim_apply _ Facts₀.bcast_S_S1024 _ i ix0 (fun a => a.elim0)

/-- A [1024] array viewed [1, 1, 1024]: the entry at (0, 0, d) is entry `d`. -/
theorem row_apply (X : S1024.Idx → EReal) (j : S1x1x1024.Idx) :
    shapeCast S1x1x1024 X Facts₀.shapeCasts_S1024_S1x1x1024 j = X (ix1 (n := 1024) (j 2)) := by
  refine shapeCast_apply _ Facts₀.shapeCasts_S1024_S1x1x1024 j (ix1 (n := 1024) (j 2)) ?_
  rw [Shape.rowMajor_val_one, Shape.rowMajor_val_three]
  have h0 : (j 0).val < 1 := (j 0).isLt
  have h1 : (j 1).val < 1 := (j 1).isLt
  show (j 2).val = ((j 0).val * 1 + (j 1).val) * 1024 + (j 2).val
  omega

variable (m : (ℓ : Loc nD τ sig) → Buf (Elt Ideal) ℓ)

/-! ## The four arrays as the host operations leave them -/

set_option maxHeartbeats 4000000 in
/-- The tokens as floats, with a unit last axis. -/
theorem tokens_array (c : Dev nD) :
    (V m c main_v1 : S4x8192x1.Idx → EReal)
      = broadcastInDim S4x8192x1 ![0, 1] Facts₀.bcast_S4x8192_S4x8192x1_0_1
          (sitofp (F := Ideal) .f32 (m ((c : Thread nD τ).loc main_arg0))) := by
  dsimp only [Gen.V, Gen.hostOps0]
  after_results_simp <;> rfl

set_option maxHeartbeats 4000000 in
/-- The coefficients of t². -/
theorem quad_array (c : Dev nD) (j : S1x1x1024.Idx) :
    (V m c main_v50 : S1x1x1024.Idx → EReal) j
      = (shapeCast S1x1x1024
          (addf (addf (addf (column (m ((c : Thread nD τ).loc main_arg1)) 0 Facts₀.slices_S1024x12_S1024x1_0_0)
            (column (m ((c : Thread nD τ).loc main_arg1)) 3 Facts₀.slices_S1024x12_S1024x1_0_3))
            (column (m ((c : Thread nD τ).loc main_arg1)) 6 Facts₀.slices_S1024x12_S1024x1_0_6))
            (column (m ((c : Thread nD τ).loc main_arg1)) 9 Facts₀.slices_S1024x12_S1024x1_0_9))
          Facts₀.shapeCasts_S1024_S1x1x1024 : FVec Ideal S1x1x1024 .f32) j := by
  dsimp only [Gen.V, Gen.hostOps0]
  after_results_simp <;> rfl

set_option maxHeartbeats 4000000 in
/-- The coefficients of t. -/
theorem lin_array (c : Dev nD) (j : S1x1x1024.Idx) :
    (V m c main_v51 : S1x1x1024.Idx → EReal) j
      = (shapeCast S1x1x1024
          (addf (addf (addf (addf (column (m ((c : Thread nD τ).loc main_arg1)) 1 Facts₀.slices_S1024x12_S1024x1_0_1)
            (column (m ((c : Thread nD τ).loc main_arg1)) 2 Facts₀.slices_S1024x12_S1024x1_0_2))
            (mulf twos (column (m ((c : Thread nD τ).loc main_arg1)) 4 Facts₀.slices_S1024x12_S1024x1_0_4)))
            (mulf twos (column (m ((c : Thread nD τ).loc main_arg1)) 8 Facts₀.slices_S1024x12_S1024x1_0_8)))
            (mulf twos (column (m ((c : Thread nD τ).loc main_arg1)) 10 Facts₀.slices_S1024x12_S1024x1_0_10)))
          Facts₀.shapeCasts_S1024_S1x1x1024 : FVec Ideal S1x1x1024 .f32) j := by
  dsimp only [Gen.V, Gen.hostOps0]
  after_results_simp <;> rfl

set_option maxHeartbeats 4000000 in
/-- The constant terms. -/
theorem const_array (c : Dev nD) (j : S1x1x1024.Idx) :
    (V m c main_v52 : S1x1x1024.Idx → EReal) j
      = (shapeCast S1x1x1024
          (addf (addf (subf (addf (addf (m ((c : Thread nD τ).loc main_arg2) : FVec Ideal S1024 .f32)
            (column (m ((c : Thread nD τ).loc main_arg1)) 2 Facts₀.slices_S1024x12_S1024x1_0_2))
            (mulf twos (column (m ((c : Thread nD τ).loc main_arg1)) 4 Facts₀.slices_S1024x12_S1024x1_0_4)))
            (column (m ((c : Thread nD τ).loc main_arg1)) 5 Facts₀.slices_S1024x12_S1024x1_0_5))
            (column (m ((c : Thread nD τ).loc main_arg1)) 8 Facts₀.slices_S1024x12_S1024x1_0_8))
            (column (m ((c : Thread nD τ).loc main_arg1)) 10 Facts₀.slices_S1024x12_S1024x1_0_10))
          Facts₀.shapeCasts_S1024_S1x1x1024 : FVec Ideal S1x1x1024 .f32) j := by
  dsimp only [Gen.V, Gen.hostOps0]
  after_results_simp <;> rfl

/-! ## The same, at an index -/

/-- The token array at (p, q, 0) is the token at (p, q), as a real. -/
theorem tokens_at (c : Dev nD) (j : S4x8192x1.Idx) :
    (V m c main_v1 : S4x8192x1.Idx → EReal) j = tok (m ((c : Thread nD τ).loc main_arg0)) (j 0) (j 1) := by
  rw [tokens_array]
  refine (broadcastInDim_apply _ Facts₀.bcast_S4x8192_S4x8192x1_0_1 _ j (ix2 (j 0) (j 1)) (fun a => match a with
    | ⟨0, _⟩ => by show (j 0).val = if (4 : Nat) = 1 then 0 else (j 0).val; rw [if_neg (by decide)]
    | ⟨1, _⟩ => by show (j 1).val = if (8192 : Nat) = 1 then 0 else (j 1).val; rw [if_neg (by decide)])).trans ?_
  rfl

/-- The first coefficient row at (0, 0, d) is the coefficient of t² in row `d`. -/
theorem quad_at (c : Dev nD) (j : S1x1x1024.Idx) :
    (V m c main_v50 : S1x1x1024.Idx → EReal) j = quadCoef (m ((c : Thread nD τ).loc main_arg1)) (j 2) := by
  rw [quad_array, row_apply]
  obtain ⟨W, hW⟩ : ∃ W : S1024x12.Idx → EReal, W = m ((c : Thread nD τ).loc main_arg1) := ⟨_, rfl⟩
  obtain ⟨d, hd⟩ : ∃ d : Fin 1024, d = j 2 := ⟨_, rfl⟩
  rw [← hW, ← hd]
  simp only [addf_apply, column_apply W 0 (by decide), column_apply W 3 (by decide), column_apply W 6 (by decide),
    column_apply W 9 (by decide)]
  rfl

/-- The second at (0, 0, d) is the coefficient of t. -/
theorem lin_at (c : Dev nD) (j : S1x1x1024.Idx) :
    (V m c main_v51 : S1x1x1024.Idx → EReal) j = linCoef (m ((c : Thread nD τ).loc main_arg1)) (j 2) := by
  rw [lin_array, row_apply]
  obtain ⟨W, hW⟩ : ∃ W : S1024x12.Idx → EReal, W = m ((c : Thread nD τ).loc main_arg1) := ⟨_, rfl⟩
  obtain ⟨d, hd⟩ : ∃ d : Fin 1024, d = j 2 := ⟨_, rfl⟩
  rw [← hW, ← hd]
  simp only [addf_apply, mulf_apply, twos_apply, column_apply W 1 (by decide), column_apply W 2 (by decide),
    column_apply W 4 (by decide), column_apply W 8 (by decide), column_apply W 10 (by decide)]
  rfl

/-- The third at (0, 0, d) is the constant term. -/
theorem const_at (c : Dev nD) (j : S1x1x1024.Idx) :
    (V m c main_v52 : S1x1x1024.Idx → EReal) j
      = constCoef (m ((c : Thread nD τ).loc main_arg1)) (m ((c : Thread nD τ).loc main_arg2)) (j 2) := by
  rw [const_array, row_apply]
  obtain ⟨W, hW⟩ : ∃ W : S1024x12.Idx → EReal, W = m ((c : Thread nD τ).loc main_arg1) := ⟨_, rfl⟩
  obtain ⟨d, hd⟩ : ∃ d : Fin 1024, d = j 2 := ⟨_, rfl⟩
  rw [← hW, ← hd]
  simp only [addf_apply, subf_apply, mulf_apply, twos_apply, column_apply W 2 (by decide), column_apply W 4 (by decide),
    column_apply W 5 (by decide), column_apply W 8 (by decide), column_apply W 10 (by decide)]
  rfl

end Cert.TokenQuadratic.Kernel

end
-- ==== Proof.OutputArray.lean ====
/-
  From blocks to the array. The grid has sixteen points; point `t` computes rows 512 t … 512 t + 511 of the second axis
  of the output, all four batches and all 1024 columns. Within the block at coordinates (p, r, d) the body multiplies the
  token at (p, r) of its token block — rows 512 t … of the token array — by itself and by the coefficient rows at `d`,
  which every point sees whole. So what point `t` writes back is block `t` of the embedding `embed`; the sixteen blocks
  cover the output (row `q` lies in block `q / 512`), hence the output array after the run IS `embed` of the arguments.
-/
import proofs.«154314_j15530601742779_2_alg».proof.Proof.Gen.KernelIdeal.Value
import proofs.«154314_j15530601742779_2_alg».proof.Proof.HostPrefix
import Idealize.ShloMosaic.Lib.Pipeline.Value

noncomputable section

namespace Cert.TokenQuadratic.Kernel

open Cert.KernelIdeal Cert.KernelIdeal.Gen Idealize.ShloMosaic Idealize.ShloMosaic.TcCoe Idealize.SL.Sem
open Idealize.ShloMosaic.ValueIdx Cert.TokenQuadratic
open Idealize.ShloMosaic.Pipeline (Dat)

variable (m : (ℓ : Loc nD τ sig) → Buf (Elt Ideal) ℓ) (ρ : Dev nD → PrngReg)

/-- Where each window's block sits at point `t`: the token block and the output block move together along the second
    axis, at block index `t`; every other block index is zero. -/
theorem block_indices : ∀ t : Fin cfg0.N,
    win0_0.index t (0 : Fin 3) = 0 ∧ win0_0.index t (1 : Fin 3) = t.val ∧ win0_0.index t (2 : Fin 3) = 0
    ∧ win0_1.index t (2 : Fin 3) = 0 ∧ win0_2.index t (2 : Fin 3) = 0 ∧ win0_3.index t (2 : Fin 3) = 0
    ∧ win0_4.index t (0 : Fin 3) = 0 ∧ win0_4.index t (1 : Fin 3) = t.val ∧ win0_4.index t (2 : Fin 3) = 0 :=
  (by decide +kernel : ∀ t : Fin grid0.N, _)

/-- The offset of a load or store of a whole block: the origin. -/
theorem origin_eq : (![0, 0, 0] : Fin 3 → Nat) = fun _ => 0 := funext fun a => by fin_cases a <;> rfl

/-! ## Each input block, read at an index -/

/-- The token block at point `t`, at (p, r, 0): the token at (p, 512 t + r). -/
theorem token_block (c : Dev nD) (t : Fin cfg0.N) (x : S4x512x1.Idx) (p : Fin 4) (q : Fin 8192)
    (hp : p.val = (x 0).val) (hq : q.val = 512 * t.val + (x 1).val) :
    (iblk m c 0 t : Vec Ideal S4x512x1 .f32) x = tok (m ((c : Thread nD τ).loc main_arg0)) p q := by
  obtain ⟨e00, e01, e02, e12, e22, e32, e40, e41, e42⟩ := block_indices t
  unfold iblk
  rw [View.read_apply]
  refine (tokens_at m c _).trans ?_
  congr 1
  · apply Fin.ext
    show win0_0.index t (0 : Fin 3) * 4 + 1 * (x 0).val = p.val
    omega
  · apply Fin.ext
    show win0_0.index t (1 : Fin 3) * 512 + 1 * (x 1).val = q.val
    omega

/-- The first coefficient block, which every point sees whole, at (0, 0, d): the coefficient of t² in row `d`. -/
theorem quad_block (c : Dev nD) (t : Fin cfg0.N) (x : S1x1x1024.Idx) (d : Fin 1024) (hd : d.val = (x 2).val) :
    (iblk m c 1 t : Vec Ideal S1x1x1024 .f32) x = quadCoef (m ((c : Thread nD τ).loc main_arg1)) d := by
  obtain ⟨e00, e01, e02, e12, e22, e32, e40, e41, e42⟩ := block_indices t
  unfold iblk
  rw [View.read_apply]
  refine (quad_at m c _).trans ?_
  congr 1
  apply Fin.ext
  show win0_1.index t (2 : Fin 3) * 1024 + 1 * (x 2).val = d.val
  omega

/-- The second, at (0, 0, d): the coefficient of t. -/
theorem lin_block (c : Dev nD) (t : Fin cfg0.N) (x : S1x1x1024.Idx) (d : Fin 1024) (hd : d.val = (x 2).val) :
    (iblk m c 2 t : Vec Ideal S1x1x1024 .f32) x = linCoef (m ((c : Thread nD τ).loc main_arg1)) d := by
  obtain ⟨e00, e01, e02, e12, e22, e32, e40, e41, e42⟩ := block_indices t
  unfold iblk
  rw [View.read_apply]
  refine (lin_at m c _).trans ?_
  congr 1
  apply Fin.ext
  show win0_2.index t (2 : Fin 3) * 1024 + 1 * (x 2).val = d.val
  omega

/-- The third, at (0, 0, d): the constant term. -/
theorem const_block (c : Dev nD) (t : Fin cfg0.N) (x : S1x1x1024.Idx) (d : Fin 1024) (hd : d.val = (x 2).val) :
    (iblk m c 3 t : Vec Ideal S1x1x1024 .f32) x
      = constCoef (m ((c : Thread nD τ).loc main_arg1)) (m ((c : Thread nD τ).loc main_arg2)) d := by
  obtain ⟨e00, e01, e02, e12, e22, e32, e40, e41, e42⟩ := block_indices t
  unfold iblk
  rw [View.read_apply]
  refine (const_at m c _).trans ?_
  congr 1
  apply Fin.ext
  show win0_3.index t (2 : Fin 3) * 1024 + 1 * (x 2).val = d.val
  omega

/-- The embedding read through point `t`'s output block, at (p, r, d) of the block: its value at (p, 512 t + r, d). -/
theorem embed_block (N : STok.Idx → BitVec 32) (W : SW.Idx → EReal) (b : SBias.Idx → EReal) (t : Fin cfg0.N)
    (y : S4x512x1024.Idx) (p : Fin 4) (q : Fin 8192) (d : Fin 1024)
    (hp : p.val = (y 0).val) (hq : q.val = 512 * t.val + (y 1).val) (hd : d.val = (y 2).val) :
    embed N W b (((cfg0.win 4).blk t).view.emb y) = embedAt N W b p q d := by
  obtain ⟨e00, e01, e02, e12, e22, e32, e40, e41, e42⟩ := block_indices t
  unfold embed
  congr 1
  · apply Fin.ext
    show win0_4.index t (0 : Fin 3) * 4 + 1 * (y 0).val = p.val
    omega
  · apply Fin.ext
    show win0_4.index t (1 : Fin 3) * 512 + 1 * (y 1).val = q.val
    omega
  · apply Fin.ext
    show win0_4.index t (2 : Fin 3) * 1024 + 1 * (y 2).val = d.val
    omega

/-! ## What a point writes back -/

/-- What point `t` writes back is block `t` of the embedding of the argument arrays. -/
theorem flushed_eq (c : Dev nD) (t : Fin cfg0.N) :
    (dats m 0 c).flushed 4 t = ((cfg0.win 4).blk t).view.read (Elt Ideal)
      (embed (m ((c : Thread nD τ).loc main_arg0)) (m ((c : Thread nD τ).loc main_arg1))
        (m ((c : Thread nD τ).loc main_arg2))) := by
  rw [Value.flushed4]
  unfold out0_4
  simp only [View.ld_unit_zero (S := S4x512x1) origin_eq, View.ld_unit_zero (S := S1x1x1024) origin_eq]
  funext y
  show View.canon (Val := Elt Ideal) (s := S4x512x1024) (e := .f32)
      [⟨r0_2, k0_pay1 (iblk m c 0 t) (iblk m c 1 t) (iblk m c 2 t) (iblk m c 3 t)⟩] y
    = embed (m ((c : Thread nD τ).loc main_arg0)) (m ((c : Thread nD τ).loc main_arg1))
        (m ((c : Thread nD τ).loc main_arg2)) (((cfg0.win 4).blk t).view.emb y)
  refine (Value.canon4_eq _ _ _ _ y).trans ?_
  have hy0 : (y 0).val < 4 := (y 0).isLt
  have hy1 : (y 1).val < 512 := (y 1).isLt
  have hy2 : (y 2).val < 1024 := (y 2).isLt
  have ht : t.val < 16 := lt_of_lt_of_eq t.isLt (N_0 : cfg0.N = 16)
  dsimp only [Value.E4]
  rw [token_block m c t (Value.ix4_0 y) ⟨(y 0).val, hy0⟩ ⟨512 * t.val + (y 1).val, by omega⟩ rfl rfl,
    quad_block m c t (Value.ix4_2 y) ⟨(y 2).val, hy2⟩ rfl,
    lin_block m c t (Value.ix4_4 y) ⟨(y 2).val, hy2⟩ rfl,
    const_block m c t (Value.ix4_5 y) ⟨(y 2).val, hy2⟩ rfl,
    embed_block _ _ _ t y ⟨(y 0).val, hy0⟩ ⟨512 * t.val + (y 1).val, by omega⟩ ⟨(y 2).val, hy2⟩ rfl rfl rfl]
  rfl

/-- An index of the output array is in point `t`'s block iff each coordinate is in the block's range on its axis. -/
theorem mem_block (t : Fin cfg0.N) (i : S4x8192x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v53).slice (win0_4.rect t)).set ↔ _
  rw [View.set_slice_whole, Rect.mem_set_unit]
  exact Iff.rfl

/-- Every index of the output lies in some point's block: row `q` of the second axis in block `q / 512`. -/
theorem covered (i : S4x8192x1024.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 1024 := (i 2).isLt
  have hN : (i 1).val / 512 < cfg0.N := by
    show (i 1).val / 512 < grid0.N
    rw [N_0]; omega
  refine ⟨⟨(i 1).val / 512, hN⟩, flush0_4 _, ?_⟩
  rw [mem_block]
  obtain ⟨e00, e01, e02, e12, e22, e32, e40, e41, e42⟩ := block_indices ⟨(i 1).val / 512, hN⟩
  replace e41 : win0_4.index ⟨(i 1).val / 512, hN⟩ (1 : Fin 3) = (i 1).val / 512 := e41
  intro a
  match a with
  | ⟨0, _⟩ =>
    show win0_4.index ⟨(i 1).val / 512, hN⟩ (0 : Fin 3) * 4 ≤ (i 0).val
      ∧ (i 0).val < win0_4.index ⟨(i 1).val / 512, hN⟩ (0 : Fin 3) * 4 + 4
    omega
  | ⟨1, _⟩ =>
    show win0_4.index ⟨(i 1).val / 512, hN⟩ (1 : Fin 3) * 512 ≤ (i 1).val
      ∧ (i 1).val < win0_4.index ⟨(i 1).val / 512, hN⟩ (1 : Fin 3) * 512 + 512
    omega
  | ⟨2, _⟩ =>
    show win0_4.index ⟨(i 1).val / 512, hN⟩ (2 : Fin 3) * 1024 ≤ (i 2).val
      ∧ (i 2).val < win0_4.index ⟨(i 1).val / 512, hN⟩ (2 : Fin 3) * 1024 + 1024
    omega

/-- The output array after the run is the embedding of the argument arrays. -/
theorem final (c : Dev nD) :
    (dats m 0 c).arrAt 4 cfg0.N = embed (m ((c : Thread nD τ).loc main_arg0)) (m ((c : Thread nD τ).loc main_arg1))
      (m ((c : Thread nD τ).loc main_arg2)) :=
  (dats m 0 c).arrAt_eq_of_cover 4 _ (fun t _ => flushed_eq m c t) covered

/-- The kernel's run: every weakly fair execution ends with the output array at the embedding of the arguments, the
    arguments unchanged. -/
theorem run : θ_run defs (onTc (τ := τ) (main (F := Ideal))) ⟨m, fun _ => 0, ρ⟩ fun r => ∀ c : Dev nD,
      r.2.mem ((c : Thread nD τ).loc main_v53) = embed (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.TokenQuadratic.Kernel

end
-- ==== Proof.Reference.lean ====
/-
  The reference, read index by index. Its result at (p, q, d) is the contraction over the twelve features of the token
  `t = N(p, q)` against row `d` of the weights, plus the bias at `d`. The features are laid side by side along a last
  axis of extent 12 (a concatenation of twelve [4, 8192, 1] arrays): the entry at coordinate `f` of that axis comes from
  the `f`-th array, at the same (p, q). Each of those arrays is a pointwise expression of `t` and the constants 0, 1, 2.
  With real weights and bias the contraction is the quadratic in `t` (the identity of the specification).
-/
import proofs.«154314_j15530601742779_2_alg».proof.Proof.Gen.ReferenceIdeal.Read
import proofs.«154314_j15530601742779_2_alg».proof.Proof.Quadratic

noncomputable section

namespace Cert.TokenQuadratic.Reference

open Cert.ReferenceIdeal Cert.ReferenceIdeal.Read Idealize.ShloMosaic Idealize.ShloMosaic.ValueIdx Cert.TokenQuadratic

/-! ## A [4, 8192, 1] index read as a [4, 8192] index: the last coordinate dropped -/

theorem dropUnit_v15 (j : S4x8192x1.Idx) : idx_main_v15 j = ix2 (j 0) (j 1) :=
  funext fun a => Fin.ext (by match a with | ⟨0, _⟩ => rfl | ⟨1, _⟩ => rfl)
theorem dropUnit_v16 (j : S4x8192x1.Idx) : idx_main_v16 j = ix2 (j 0) (j 1) :=
  funext fun a => Fin.ext (by match a with | ⟨0, _⟩ => rfl | ⟨1, _⟩ => rfl)
theorem dropUnit_v17 (j : S4x8192x1.Idx) : idx_main_v17 j = ix2 (j 0) (j 1) :=
  funext fun a => Fin.ext (by match a with | ⟨0, _⟩ => rfl | ⟨1, _⟩ => rfl)
theorem dropUnit_v18 (j : S4x8192x1.Idx) : idx_main_v18 j = ix2 (j 0) (j 1) :=
  funext fun a => Fin.ext (by match a with | ⟨0, _⟩ => rfl | ⟨1, _⟩ => rfl)
theorem dropUnit_v19 (j : S4x8192x1.Idx) : idx_main_v19 j = ix2 (j 0) (j 1) :=
  funext fun a => Fin.ext (by match a with | ⟨0, _⟩ => rfl | ⟨1, _⟩ => rfl)
theorem dropUnit_v20 (j : S4x8192x1.Idx) : idx_main_v20 j = ix2 (j 0) (j 1) :=
  funext fun a => Fin.ext (by match a with | ⟨0, _⟩ => rfl | ⟨1, _⟩ => rfl)
theorem dropUnit_v21 (j : S4x8192x1.Idx) : idx_main_v21 j = ix2 (j 0) (j 1) :=
  funext fun a => Fin.ext (by match a with | ⟨0, _⟩ => rfl | ⟨1, _⟩ => rfl)
theorem dropUnit_v22 (j : S4x8192x1.Idx) : idx_main_v22 j = ix2 (j 0) (j 1) :=
  funext fun a => Fin.ext (by match a with | ⟨0, _⟩ => rfl | ⟨1, _⟩ => rfl)
theorem dropUnit_v23 (j : S4x8192x1.Idx) : idx_main_v23 j = ix2 (j 0) (j 1) :=
  funext fun a => Fin.ext (by match a with | ⟨0, _⟩ => rfl | ⟨1, _⟩ => rfl)
theorem dropUnit_v24 (j : S4x8192x1.Idx) : idx_main_v24 j = ix2 (j 0) (j 1) :=
  funext fun a => Fin.ext (by match a with | ⟨0, _⟩ => rfl | ⟨1, _⟩ => rfl)
theorem dropUnit_v25 (j : S4x8192x1.Idx) : idx_main_v25 j = ix2 (j 0) (j 1) :=
  funext fun a => Fin.ext (by match a with | ⟨0, _⟩ => rfl | ⟨1, _⟩ => rfl)
theorem dropUnit_v26 (j : S4x8192x1.Idx) : idx_main_v26 j = ix2 (j 0) (j 1) :=
  funext fun a => Fin.ext (by match a with | ⟨0, _⟩ => rfl | ⟨1, _⟩ => rfl)

/-! ## The twelve feature arrays at an index -/

theorem piece_v15 (N : S4x8192.Idx → BitVec 32) (j : S4x8192x1.Idx) :
    val_main_v15 (F := Ideal) N j = tok N (j 0) (j 1) * tok N (j 0) (j 1) := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v16 (N : S4x8192.Idx → BitVec 32) (j : S4x8192x1.Idx) :
    val_main_v16 (F := Ideal) N j = tok N (j 0) (j 1) := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v17 (N : S4x8192.Idx → BitVec 32) (j : S4x8192x1.Idx) :
    val_main_v17 (F := Ideal) N j = tok N (j 0) (j 1) + one := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v18 (N : S4x8192.Idx → BitVec 32) (j : S4x8192x1.Idx) :
    val_main_v18 (F := Ideal) N j = tok N (j 0) (j 1) * tok N (j 0) (j 1) := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v19 (N : S4x8192.Idx → BitVec 32) (j : S4x8192x1.Idx) :
    val_main_v19 (F := Ideal) N j = two * tok N (j 0) (j 1) + two := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v20 (N : S4x8192.Idx → BitVec 32) (j : S4x8192x1.Idx) :
    val_main_v20 (F := Ideal) j = -one := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v21 (N : S4x8192.Idx → BitVec 32) (j : S4x8192x1.Idx) :
    val_main_v21 (F := Ideal) N j = tok N (j 0) (j 1) * tok N (j 0) (j 1) := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v22 (N : S4x8192.Idx → BitVec 32) (j : S4x8192x1.Idx) :
    val_main_v22 (F := Ideal) j = zero := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v23 (N : S4x8192.Idx → BitVec 32) (j : S4x8192x1.Idx) :
    val_main_v23 (F := Ideal) N j = two * tok N (j 0) (j 1) + one := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v24 (N : S4x8192.Idx → BitVec 32) (j : S4x8192x1.Idx) :
    val_main_v24 (F := Ideal) N j = tok N (j 0) (j 1) * tok N (j 0) (j 1) := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v25 (N : S4x8192.Idx → BitVec 32) (j : S4x8192x1.Idx) :
    val_main_v25 (F := Ideal) N j = two * tok N (j 0) (j 1) + one := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl
theorem piece_v26 (N : S4x8192.Idx → BitVec 32) (j : S4x8192x1.Idx) :
    val_main_v26 (F := Ideal) j = zero := by
  simp only [val_main_v0_apply, val_main_v1_apply, val_main_cst_apply, val_main_v2_apply, val_main_cst_0_apply, val_main_v3_apply, val_main_v4_apply, val_main_cst_1_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, dropUnit_v15, dropUnit_v16, dropUnit_v17, dropUnit_v18, dropUnit_v19, dropUnit_v20, dropUnit_v21, dropUnit_v22, dropUnit_v23, dropUnit_v24, dropUnit_v25, dropUnit_v26]
  rfl

/-! ## The concatenation at an index -/

/-- Twelve [4, 8192, 1] arrays laid side by side along a last axis of extent 12, read at an index whose last
    coordinate is `k`: the `k`-th array, at the same first two coordinates. (Each piece has extent one along the
    joined axis, so the piece number IS the coordinate.) -/
theorem concat12_at {α : Type} (x0 x1 x2 x3 x4 x5 x6 x7 x8 x9 x10 x11 : S4x8192x1.Idx → α)
    (h : Shape.Concatenates (([⟨S4x8192x1, x0⟩, ⟨S4x8192x1, x1⟩, ⟨S4x8192x1, x2⟩, ⟨S4x8192x1, x3⟩, ⟨S4x8192x1, x4⟩, ⟨S4x8192x1, x5⟩, ⟨S4x8192x1, x6⟩, ⟨S4x8192x1, x7⟩, ⟨S4x8192x1, x8⟩, ⟨S4x8192x1, x9⟩, ⟨S4x8192x1, x10⟩, ⟨S4x8192x1, x11⟩] : List ((s : Shape) × (s.Idx → α))).map (·.1)) S4x8192x12 (2 : Fin 3))
    (j : S4x8192x12.Idx) (i' : S4x8192x1.Idx) (h0 : (i' 0).val = (j 0).val) (h1 : (i' 1).val = (j 1).val)
    (k : Fin 12) (hk : (j 2).val = k.val) :
    concatenate S4x8192x12 2 [⟨S4x8192x1, x0⟩, ⟨S4x8192x1, x1⟩, ⟨S4x8192x1, x2⟩, ⟨S4x8192x1, x3⟩, ⟨S4x8192x1, x4⟩, ⟨S4x8192x1, x5⟩, ⟨S4x8192x1, x6⟩, ⟨S4x8192x1, x7⟩, ⟨S4x8192x1, x8⟩, ⟨S4x8192x1, x9⟩, ⟨S4x8192x1, x10⟩, ⟨S4x8192x1, x11⟩] h j = (![x0, x1, x2, x3, x4, x5, x6, x7, x8, x9, x10, x11] : Fin 12 → S4x8192x1.Idx → α) k i' := by
  have hi : ∀ b : Fin S4x8192x1.rank, b.cast (rfl : S4x8192x1.rank = S4x8192x12.rank) ≠ (2 : Fin 3) →
      (i' b).val = (j (b.cast (rfl : S4x8192x1.rank = S4x8192x12.rank))).val := by
    intro b hb
    match b with
    | ⟨0, _⟩ => exact h0
    | ⟨1, _⟩ => exact h1
    | ⟨2, _⟩ => exact absurd rfl hb
  have hl : (List.ofFn fun n : Fin 12 => (⟨S4x8192x1, (![x0, x1, x2, x3, x4, x5, x6, x7, x8, x9, x10, x11] : Fin 12 → S4x8192x1.Idx → α) n⟩ : (s : Shape) × (s.Idx → α))) = [⟨S4x8192x1, x0⟩, ⟨S4x8192x1, x1⟩, ⟨S4x8192x1, x2⟩, ⟨S4x8192x1, x3⟩, ⟨S4x8192x1, x4⟩, ⟨S4x8192x1, x5⟩, ⟨S4x8192x1, x6⟩, ⟨S4x8192x1, x7⟩, ⟨S4x8192x1, x8⟩, ⟨S4x8192x1, x9⟩, ⟨S4x8192x1, x10⟩, ⟨S4x8192x1, x11⟩] := by
    simp only [List.ofFn_succ, List.ofFn_zero]
    rfl
  revert h
  rw [← hl]
  intro h
  exact concatenate_ofFn_unit_apply (t := S4x8192x12) (s₁ := S4x8192x1) (2 : Fin 3) (![x0, x1, x2, x3, x4, x5, x6, x7, x8, x9, x10, x11] : Fin 12 → S4x8192x1.Idx → α) h
    (rfl : S4x8192x1.rank = S4x8192x12.rank) rfl j k hk i' hi

/-- The concatenated features at (p, q, f) are feature `f` of the token at (p, q). -/
theorem features_at (N : S4x8192.Idx → BitVec 32) (i : S4x8192x1024.Idx) (k : Fin 12) :
    val_main_v27 (F := Ideal) N (lidx_main_v28 i k) = feat (tok N (i 0) (i 1)) k := by
  unfold val_main_v27
  refine (concat12_at _ _ _ _ _ _ _ _ _ _ _ _ _ (lidx_main_v28 i k) (ix3 (i 0) (i 1) (0 : Fin 1)) rfl rfl k rfl).trans ?_
  fin_cases k
  · exact piece_v15 N (ix3 (i 0) (i 1) (0 : Fin 1))
  · exact piece_v16 N (ix3 (i 0) (i 1) (0 : Fin 1))
  · exact piece_v17 N (ix3 (i 0) (i 1) (0 : Fin 1))
  · exact piece_v18 N (ix3 (i 0) (i 1) (0 : Fin 1))
  · exact piece_v19 N (ix3 (i 0) (i 1) (0 : Fin 1))
  · exact piece_v20 N (ix3 (i 0) (i 1) (0 : Fin 1))
  · exact piece_v21 N (ix3 (i 0) (i 1) (0 : Fin 1))
  · exact piece_v22 N (ix3 (i 0) (i 1) (0 : Fin 1))
  · exact piece_v23 N (ix3 (i 0) (i 1) (0 : Fin 1))
  · exact piece_v24 N (ix3 (i 0) (i 1) (0 : Fin 1))
  · exact piece_v25 N (ix3 (i 0) (i 1) (0 : Fin 1))
  · exact piece_v26 N (ix3 (i 0) (i 1) (0 : Fin 1))

/-! ## The reference's result -/

/-- With real weights and a real bias, the reference's result array is the embedding: at (p, q, d) the contraction of
    the token's features against row `d`, plus the bias at `d`, which is the quadratic in the token. -/
theorem reference_eq_embed (N : S4x8192.Idx → BitVec 32) (W : S1024x12.Idx → EReal) (b : S1024.Idx → EReal)
    (hW : ∀ j, ∃ r : ℝ, W j = (r : EReal)) (hb : ∀ j, ∃ r : ℝ, b j = (r : EReal)) :
    val_main_v31 (F := Ideal) N W b = embed N W b := by
  funext i
  have er : ∀ k : Fin 12, ridx_main_v28 i k = ix2 (i 2) k := fun k =>
    funext fun a => Fin.ext (by match a with | ⟨0, _⟩ => rfl | ⟨1, _⟩ => rfl)
  have eb : idx_main_v29 (idx_main_v30 i) = ix1 (i 2) :=
    funext fun a => Fin.ext (by match a with | ⟨0, _⟩ => rfl)
  rw [val_main_v31_apply, val_main_v28_apply, val_main_v30_apply, val_main_v29_apply, eb]
  simp only [er, features_at]
  exact features_dot_eq_embedAt N W b hW hb (i 0) (i 1) (i 2)

end Cert.TokenQuadratic.Reference

end
-- ==== Proof.Finite.lean ====
/-
  The precondition, read back. It says: every weight and every bias entry has absolute value below +∞ — a conjunction of
  two "for all entries" tests, each an and-reduction of entrywise comparisons `|x| < +∞` from the constant true. An
  extended real whose absolute value `max x (−x)` is below +∞ is neither +∞ nor −∞: it is a real number. So under the
  precondition every weight and every bias entry is (the image of) a real.
-/
import proofs.«154314_j15530601742779_2_alg».proof.Proof.Gen.Pre_finite_inputs
import Idealize.ShloMosaic.PureOps.Ideal
import Idealize.ShloMosaic.Lib.ReduceAll
import Idealize.ShloMosaic.Lib.ValueIdx

noncomputable section

namespace Cert.TokenQuadratic.Finite

open Idealize.ShloMosaic Idealize.ShloMosaic.ValueIdx Cert.Pre_finite_inputs

/-- The word of +∞ denotes the top of the extended reals. -/
theorem ofBits_inf : Ideal.ofBits .f32 0x7F800000#32 = (⊤ : EReal) := by
  simp [Ideal.ofBits, Ideal.ieee]

/-- An extended real with absolute value below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` answering true makes `x` real. -/
theorem real_of_test (x : EReal) (h : Ideal.cmp .olt (max x (-x)) (Ideal.ofBits .f32 0x7F800000#32) = 1#1) :
    ∃ r : ℝ, x = (r : EReal) := by
  rw [ofBits_inf] at h
  refine real_of_abs_lt_top x ?_
  by_contra hn
  simp [Ideal.cmp, hn] at h

/-- A rank-0 array has one index. -/
instance : Subsingleton S_.Idx := ⟨fun a b => funext fun d => d.elim0⟩

/-- Under the precondition every weight and every bias entry is a real number. -/
theorem real_of_pre (N : IVec S4x8192 32) (W : FVec Ideal S1024x12 .f32) (b : FVec Ideal S1024 .f32)
    (h : fn (F := Ideal) N W b = fun _ => 1#1) :
    (∀ j, ∃ r : ℝ, W j = (r : EReal)) ∧ (∀ j, ∃ r : ℝ, b j = (r : EReal)) := by
  have h0 := congrFun h ix0
  dsimp only [fn] at h0
  obtain ⟨hW, hb⟩ := IntOp.andi_eq_one.1 h0
  exact ⟨fun j => real_of_test (W j) (Host.reduce_andi_all _ _ _ _ ix0 hW j),
    fun j => real_of_test (b j) (Host.reduce_andi_all _ _ _ _ ix0 hb j)⟩

end Cert.TokenQuadratic.Finite

end
-- ==== Proof.lean ====
/-
  The certificate of a token embedding. For a token id `n` read as the real `t`, the reference forms twelve features of
  `t` — [t², t, t+1, t², 2t+2, −1, t², 0, 2t+1, t², 2t+1, 0] —, contracts them against each row of a 1024 × 12 weight matrix
  and adds a bias; the kernel first gathers, per row, the coefficients of t², t and 1, and then evaluates the quadratic
  t² A + t B + C block by block over a grid of sixteen row blocks.
  Both programs end, at every index (p, q, d), with the same extended real: the kernel's array is the quadratic (each
  block is the body's pointwise expression of the token block and the three coefficient rows; the blocks cover the
  output), the reference's is the contraction plus bias, and the two are equal by distributivity — valid because the
  precondition makes every weight and bias entry a real number and a token is an integer.
  The three frames are the programs' runs with the result forgotten; nothing was rewritten between the kernel and its
  idealization, so that conjunct is trivial.
-/
import proofs.«154314_j15530601742779_2_alg».proof.Defs
import proofs.«154314_j15530601742779_2_alg».proof.Proof.Gen.Kernel
import proofs.«154314_j15530601742779_2_alg».proof.Proof.Gen.Kernel.Skeleton
import proofs.«154314_j15530601742779_2_alg».proof.Proof.Gen.Kernel.Launch
import proofs.«154314_j15530601742779_2_alg».proof.Proof.Gen.Kernel.Points
import proofs.«154314_j15530601742779_2_alg».proof.Proof.Gen.Kernel.Frame
import proofs.«154314_j15530601742779_2_alg».proof.Proof.Gen.KernelIdeal
import proofs.«154314_j15530601742779_2_alg».proof.Proof.Gen.KernelIdeal.Skeleton
import proofs.«154314_j15530601742779_2_alg».proof.Proof.Gen.KernelIdeal.Launch
import proofs.«154314_j15530601742779_2_alg».proof.Proof.Gen.KernelIdeal.Points
import proofs.«154314_j15530601742779_2_alg».proof.Proof.Gen.KernelIdeal.Frame
import proofs.«154314_j15530601742779_2_alg».proof.Proof.Gen.ReferenceIdeal
import proofs.«154314_j15530601742779_2_alg».proof.Proof.Gen.Pre_finite_inputs
import proofs.«154314_j15530601742779_2_alg».proof.Proof.Gen.KernelIdeal.Value
import proofs.«154314_j15530601742779_2_alg».proof.Proof.Gen.ReferenceIdeal.Run
import proofs.«154314_j15530601742779_2_alg».proof.Proof.Gen.ReferenceIdeal.Read
import proofs.«154314_j15530601742779_2_alg».proof.Proof.OutputArray
import proofs.«154314_j15530601742779_2_alg».proof.Proof.Reference
import proofs.«154314_j15530601742779_2_alg».proof.Proof.Finite
import Idealize.ShloMosaic.Adequacy
import Idealize.ShloMosaic.Init

noncomputable section

namespace Cert.Proof

open Idealize.ShloMosaic Idealize.ShloMosaic.TcCoe Idealize.SL.Sem Cert.TokenQuadratic

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to the end and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories that agree on the arguments, under the precondition, both programs end with the embedding of the
    arguments: the kernel's output array is it block by block, the reference's result is it by the polynomial identity
    over real weights and bias. -/
theorem algebraic : Cert.algebraic_KernelIdeal_ReferenceIdeal := by
  intro m ρ m' ρ' hpre hagree
  refine ⟨_, Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hW, hb⟩ := Finite.real_of_pre _ _ _ (hpre c)
  refine (Cert.ReferenceIdeal.Read.val_main_v31_eq _ _ _).trans ?_
  rw [(hagree c).1, (hagree c).2.1, (hagree c).2.2]
  exact Reference.reference_eq_embed _ _ _ hW hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
